-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5 : Shape := ⟨2, ![16384, 5]⟩
abbrev S16x5120 : Shape := ⟨2, ![16, 5120]⟩
abbrev S16 : Shape := ⟨1, ![16]⟩
abbrev S_ : Shape := ⟨0, ![]⟩

class Facts : Prop where
  bcast_S_S16x5120 : S_.BroadcastsInDim S16x5120 (![] : Fin 0 → Fin S16x5120.rank)
  reducesTo_S16x5120_S_d0_1 : S16x5120.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : IVec S16384x5 32) (main_arg1 : FVec F S16x5120 .f32) (main_arg2 : FVec F S16 .f32) : IVec S_ 1 :=
  let main_v0 : FVec F S16x5120 .f32 := Host.absf main_arg1
  let main_cst : FVec F S_ .f32 := constant S_ .f32 0x7F800000#32
  let main_v1 : FVec F S16x5120 .f32 := broadcastInDim S16x5120 ![] bcast_S_S16x5120 main_cst
  let main_v2 : IVec S16x5120 1 := cmpf .olt main_v0 main_v1
  let main_c : IVec S_ 1 := constantI S_ 1 1#1
  let main_v3 : IVec S_ 1 := (fun x v => Host.reduce IntOp.andi x v reducesTo_S16x5120_S_d0_1 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16384x5 : Shape := ⟨2, ![16384, 5]⟩
abbrev S16x5120 : Shape := ⟨2, ![16, 5120]⟩
abbrev S16 : Shape := ⟨1, ![16]⟩
abbrev S5120x16 : Shape := ⟨2, ![5120, 16]⟩
abbrev S5x1024x16 : Shape := ⟨3, ![5, 1024, 16]⟩
abbrev S1x16 : Shape := ⟨2, ![1, 16]⟩
abbrev S16384x16 : Shape := ⟨2, ![16384, 16]⟩
abbrev S2048x5 : Shape := ⟨2, ![2048, 5]⟩
abbrev S2048x16 : Shape := ⟨2, ![2048, 16]⟩
abbrev S256x1024 : Shape := ⟨2, ![256, 1024]⟩
abbrev S256x5 : Shape := ⟨2, ![256, 5]⟩
abbrev S256x16 : Shape := ⟨2, ![256, 16]⟩
abbrev S256x1 : Shape := ⟨2, ![256, 1]⟩
abbrev S1x1024x16 : Shape := ⟨3, ![1, 1024, 16]⟩
abbrev S1024x16 : Shape := ⟨2, ![1024, 16]⟩

abbrev nBuf : Space → Nat
  | .hbm => 8
  | .vmem => 6
  | .smem => 0
  | _ => 0

abbrev bufTy : (tb : Table) → Fin (tcTables nBuf tb) → BufTy
  | .hbm, ⟨0, _⟩ => ⟨S16384x5, .i32⟩
  | .hbm, ⟨1, _⟩ => ⟨S16x5120, .f32⟩
  | .hbm, ⟨2, _⟩ => ⟨S16, .f32⟩
  | .hbm, ⟨3, _⟩ => ⟨S5120x16, .f32⟩
  | .hbm, ⟨4, _⟩ => ⟨S5x1024x16, .f32⟩
  | .hbm, ⟨5, _⟩ => ⟨S5x1024x16, .bf16⟩
  | .hbm, ⟨6, _⟩ => ⟨S1x16, .f32⟩
  | .hbm, ⟨7, _⟩ => ⟨S16384x16, .f32⟩
  | .local _ .vmem, ⟨0, _⟩ => ⟨S2048x5, .i32⟩
  | .local _ .vmem, ⟨1, _⟩ => ⟨S2048x5, .i32⟩
  | .local _ .vmem, ⟨2, _⟩ => ⟨S5x1024x16, .bf16⟩
  | .local _ .vmem, ⟨3, _⟩ => ⟨S1x16, .f32⟩
  | .local _ .vmem, ⟨4, _⟩ => ⟨S2048x16, .f32⟩
  | .local _ .vmem, ⟨5, _⟩ => ⟨S2048x16, .f32⟩
  | _, _ => ⟨S16384x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v4 : BitVec 32 := Scalar.muli arg5 c256_i32
  v4
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v4 : BitVec 32 := Scalar.muli arg5 c256_i32
  let v5 : BitVec 32 := v4
  let v6 : Index := Scalar.indexCast v5
  let c0_2 : Index := 0#32
  ![v6.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v4 : BitVec 32 := Scalar.muli arg5 c256_i32
  let v5 : BitVec 32 := v4
  let v63 : Index := Scalar.indexCast v5
  let c0_20 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x5120_S5120x16_1_0 : S16x5120.Transposes [1, 0] S5120x16
  shapeCasts_S5120x16_S5x1024x16 : S5120x16.ShapeCasts S5x1024x16
  bitsLt_bf16_f32 : FTy.bits .bf16 < FTy.bits .f32
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  iota_S256x1024_d1_w32 : S256x1024.Iotas .tc 32 [1]
  h_S256x5 : 0 < S256x5.numel
  slices_S256x5_o0_0_S256x1 : S256x5.Slices ![0, 0] S256x1
  broadcasts_S256x1_S256x1024 : S256x1.Broadcasts S256x1024
  natLt_1_32 : 1 < 32
  inb_S5x1024x16_S1x1024x16_0_0_0 : ∀ a, (![0, 0, 0] : Fin 3 → Nat) a + S1x1024x16.size a ≤ S5x1024x16.size a
  h_S1x1024x16 : 0 < S1x1024x16.numel
  shapeCasts_S1x1024x16_S1024x16 : S1x1024x16.ShapeCasts S1024x16
  slices_S256x5_o0_1_S256x1 : S256x5.Slices ![0, 1] S256x1
  inb_S5x1024x16_S1x1024x16_1_0_0 : ∀ a, (![1, 0, 0] : Fin 3 → Nat) a + S1x1024x16.size a ≤ S5x1024x16.size a
  slices_S256x5_o0_2_S256x1 : S256x5.Slices ![0, 2] S256x1
  inb_S5x1024x16_S1x1024x16_2_0_0 : ∀ a, (![2, 0, 0] : Fin 3 → Nat) a + S1x1024x16.size a ≤ S5x1024x16.size a
  slices_S256x5_o0_3_S256x1 : S256x5.Slices ![0, 3] S256x1
  inb_S5x1024x16_S1x1024x16_3_0_0 : ∀ a, (![3, 0, 0] : Fin 3 → Nat) a + S1x1024x16.size a ≤ S5x1024x16.size a
  slices_S256x5_o0_4_S256x1 : S256x5.Slices ![0, 4] S256x1
  inb_S5x1024x16_S1x1024x16_4_0_0 : ∀ a, (![4, 0, 0] : Fin 3 → Nat) a + S1x1024x16.size a ≤ S5x1024x16.size a
  broadcasts_S1x16_S256x16 : S1x16.Broadcasts S256x16
  h_S256x16 : 0 < S256x16.numel
  dot_S256x1024_S1024x16_S256x16_1_0_0_1_n_n_wf : DotDims.WF S256x1024 S1024x16 S256x16 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x5.size a ≤ S2048x5.size a
  k0_off2_inb : ∀ k0_t1 : Fin k0_t1_loop.trips, ∀ a, (k0_off2 k0_t1) a + S256x16.size a ≤ S2048x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S16384x5.size a
  hwx0_0 : ∀ i : grid0.Coords, EltTy.bits .i32 = 32 ∨ (Rect.block (s := S16384x5) S2048x5.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1024x16.size a ≤ S5x1024x16.size a
  hwx0_1 : ∀ i : grid0.Coords, EltTy.bits .bf16 = 32 ∨ (Rect.block (s := S5x1024x16) S5x1024x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S16384x16.size a
  hwx0_3 : ∀ i : grid0.Coords, EltTy.bits .f32 = 32 ∨ (Rect.block (s := S16384x16) S2048x16.size (cc0_transform_3 i) (hinb0_3 i)).WholeWords (EltTy.packing .f32)

variable [Facts₀]

def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf

abbrev win0_0 : Pipeline.Window sig grid0 :=
  Pipeline.Window.ofSpec (Memref.whole main_arg0) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5x1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x5 : Shape := ⟨2, ![16384, 5]⟩
abbrev S16x5120 : Shape := ⟨2, ![16, 5120]⟩
abbrev S16 : Shape := ⟨1, ![16]⟩
abbrev S16384x5x1 : Shape := ⟨3, ![16384, 5, 1]⟩
abbrev S1x1x1024 : Shape := ⟨3, ![1, 1, 1024]⟩
abbrev S16384x5x1024 : Shape := ⟨3, ![16384, 5, 1024]⟩
abbrev S16384x5120 : Shape := ⟨2, ![16384, 5120]⟩
abbrev S5120x16 : Shape := ⟨2, ![5120, 16]⟩
abbrev S16384x16 : Shape := ⟨2, ![16384, 16]⟩
abbrev S1x16 : Shape := ⟨2, ![1, 16]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x5, .i32⟩
  | .hbm, ⟨1, _⟩ => ⟨S16x5120, .f32⟩
  | .hbm, ⟨2, _⟩ => ⟨S16, .f32⟩
  | .hbm, ⟨3, _⟩ => ⟨S16384x5x1, .i32⟩
  | .hbm, ⟨4, _⟩ => ⟨S1x1x1024, .i32⟩
  | .hbm, ⟨5, _⟩ => ⟨S16384x5x1024, .i32⟩
  | .hbm, ⟨6, _⟩ => ⟨S16384x5x1024, .i32⟩
  | .hbm, ⟨7, _⟩ => ⟨S16384x5x1024, .i1⟩
  | .hbm, ⟨8, _⟩ => ⟨S16384x5x1024, .f32⟩
  | .hbm, ⟨9, _⟩ => ⟨S16384x5120, .f32⟩
  | .hbm, ⟨10, _⟩ => ⟨S5120x16, .f32⟩
  | .hbm, ⟨11, _⟩ => ⟨S16384x16, .f32⟩
  | .hbm, ⟨12, _⟩ => ⟨S1x16, .f32⟩
  | .hbm, ⟨13, _⟩ => ⟨S16384x16, .f32⟩
  | .hbm, ⟨14, _⟩ => ⟨S16384x16, .f32⟩
  | .hbm, ⟨15, _⟩ => ⟨S_, .f32⟩
  | .hbm, ⟨16, _⟩ => ⟨S16384x16, .f32⟩
  | .hbm, ⟨17, _⟩ => ⟨S16384x16, .f32⟩
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S16384x5_S16384x5x1_0_1 : S16384x5.BroadcastsInDim S16384x5x1 (![0, 1] : Fin 2 → Fin S16384x5x1.rank)
  bcast_S16384x5x1_S16384x5x1024_0_1_2 : S16384x5x1.BroadcastsInDim S16384x5x1024 (![0, 1, 2] : Fin 3 → Fin S16384x5x1024.rank)
  bcast_S1x1x1024_S16384x5x1024_0_1_2 : S1x1x1024.BroadcastsInDim S16384x5x1024 (![0, 1, 2] : Fin 3 → Fin S16384x5x1024.rank)
  shapeCasts_S16384x5x1024_S16384x5120 : S16384x5x1024.ShapeCasts S16384x5120
  transposes_S16x5120_S5120x16_1_0 : S16x5120.Transposes [1, 0] S5120x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  dot_S16384x5120_S5120x16_S16384x16_1_0_0_1_n_n_wf : DotDims.WF S16384x5120 S5120x16 S16384x16 [1] [0] [0] [1] [] []

variable [Facts₀]

def dot_S16384x5120_S5120x16_S16384x16_1_0_0_1_n_n : DotDims S16384x5120 S5120x16 S16384x16 where
  lhsContracting := [1]
  rhsContracting := [0]
  lhsNonContracting := [0]
  rhsNonContracting := [1]
  lhsBatch := []
  rhsBatch := []
  wf := dot_S16384x5120_S5120x16_S16384x16_1_0_0_1_n_n_wf

class Facts : Prop extends Facts₀ where

variable [Facts]
-- ==== Proof.OneHotSum.lean ====
/-
  The mathematics shared by both programs, stated with no program in sight.

  Each output entry is a rectified affine form of a ONE-HOT encoding: a row carries five class words
  `l 0 … l 4`; slot `s` of the row is encoded as the indicator vector `a ↦ [l s = a]` over 1024 classes; the entry
  is `max (Σ_s Σ_a [l s = a] · w s a + b) 0`. One program computes the double sum slot by slot, adding five
  1024-term sums to a zero accumulator from the left; the other computes ONE 5120-term sum over the flattened
  encoding, position `k = 1024·s + a`. The two agree by re-indexing a finite sum along `Fin 5 × Fin 1024 ≃ Fin 5120`
  and by associativity of addition on the extended reals: no cancellation, so no finiteness is needed.
-/
import Idealize.ShloMosaic.PureOps.Ideal
import Idealize.ShloMosaic.PureOps.Ideal.Laws
import Idealize.ShloMosaic.Lib.ValueIdx

noncomputable section

namespace Cert.OneHotSum

open Idealize.ShloMosaic

/-- The indicator `[w = a]` of the class word `w` against the class number `a`, as an extended real: the unsigned
    reading of the one-bit comparison. -/
def hot (w : BitVec 32) (a : Nat) : EReal :=
  FloatOps.uitofp (F := Ideal) .f32 (IntOp.cmpi .eq w (BitVec.ofNat 32 a))

/-- The same indicator with the comparison's operands exchanged, the bit widened to a word and read SIGNED: a bit
    is 0 or 1 and both readings of it are that number. -/
theorem sitofp_setWidth_cmpi_eq (w : BitVec 32) (a : Nat) :
    FloatOps.sitofp (F := Ideal) .f32 ((IntOp.cmpi .eq (BitVec.ofNat 32 a) w).setWidth 32) = hot w a := by
  unfold hot IntOp.cmpi
  by_cases h : BitVec.ofNat 32 a = w
  · subst h
    have e : (BitVec.ofNat 32 a == BitVec.ofNat 32 a) = true := beq_self_eq_true _
    simp only [e, BitVec.ofBool_true]
    show ((((1#1 : BitVec 1).setWidth 32).toInt : ℝ) : EReal) = (((1#1 : BitVec 1).toNat : ℝ) : EReal)
    have e1 : ((1#1 : BitVec 1).setWidth 32).toInt = 1 := by decide
    have e2 : (1#1 : BitVec 1).toNat = 1 := by decide
    rw [e1, e2]; norm_num
  · have e1 : (BitVec.ofNat 32 a == w) = false := beq_eq_false_iff_ne.mpr h
    have e2 : (w == BitVec.ofNat 32 a) = false := beq_eq_false_iff_ne.mpr fun e => h e.symm
    simp only [e1, e2, BitVec.ofBool_false]
    show ((((0#1 : BitVec 1).setWidth 32).toInt : ℝ) : EReal) = (((0#1 : BitVec 1).toNat : ℝ) : EReal)
    have e3 : ((0#1 : BitVec 1).setWidth 32).toInt = 0 := by decide
    have e4 : (0#1 : BitVec 1).toNat = 0 := by decide
    rw [e3, e4]; norm_num

/-- One output entry from its row's five class words `l`, the weights `w s a` of slot `s` and class `a` for the
    entry's column, and the column's bias `b`: the rectified sum. The zero is kept as the bit pattern both
    programs rectify against. -/
def entry (l : Fin 5 → BitVec 32) (w : Fin 5 → Fin 1024 → EReal) (b : EReal) : EReal :=
  max ((∑ s : Fin 5, ∑ a : Fin 1024, hot (l s) a.val * w s a) + b) (Ideal.ofBits .f32 0x00000000#32)

/-- Five terms added one after the other to a zero accumulator are their sum. -/
theorem acc_five (m : Fin 5 → EReal) :
    ((((Ideal.ofBits .f32 0x00000000#32 + m 0) + m 1) + m 2) + m 3) + m 4 = ∑ s : Fin 5, m s := by
  rw [Ideal.ofBits_zero_f32, zero_add, Fin.sum_univ_five]

/-- The position `1024·s + a` of class `a` of slot `s` in the flattened encoding. -/
def flat (s : Fin 5) (a : Fin 1024) : Fin 5120 := ⟨1024 * s.val + a.val, by have := s.isLt; have := a.isLt; omega⟩

/-- A sum over the 5120 flattened positions is the double sum over slots and classes. -/
theorem sum_flat {M : Type*} [AddCommMonoid M] (f : Fin 5120 → M) :
    ∑ k : Fin 5120, f k = ∑ s : Fin 5, ∑ a : Fin 1024, f (flat s a) := by
  rw [← Fintype.sum_prod_type' (f := fun s a => f (flat s a)),
    ← Equiv.sum_comp (finProdFinEquiv (m := 5) (n := 1024)) f]
  refine Finset.sum_congr rfl fun p _ => congrArg f (Fin.ext ?_)
  show p.2.val + 1024 * p.1.val = 1024 * p.1.val + p.2.val
  omega

open Idealize.ShloMosaic.ValueIdx in
/-- THE RESULT both programs compute, as one function of the three argument arrays — the class words `a0`
    (16384 rows × 5 slots), the weights `a1` (16 columns × 5120 flattened positions) and the bias `a2` (16 columns):
    entry `(r, q)` is `entry` of row `r`'s words, the weights of column `q` at position `1024·s + a`, and `a2 q`. -/
def result (a0 : (⟨2, ![16384, 5]⟩ : Shape).Idx → BitVec 32) (a1 : (⟨2, ![16, 5120]⟩ : Shape).Idx → EReal)
    (a2 : (⟨1, ![16]⟩ : Shape).Idx → EReal) : (⟨2, ![16384, 16]⟩ : Shape).Idx → EReal :=
  fun i => entry (fun s => a0 (ix2 (i 0) s)) (fun s a => a1 (ix2 (i 1) (flat s a))) (a2 (ix1 (i 1)))

open Idealize.ShloMosaic.ValueIdx in
theorem result_ix2 (a0 : (⟨2, ![16384, 5]⟩ : Shape).Idx → BitVec 32) (a1 : (⟨2, ![16, 5120]⟩ : Shape).Idx → EReal)
    (a2 : (⟨1, ![16]⟩ : Shape).Idx → EReal) (r : Fin 16384) (q : Fin 16) :
    result a0 a1 a2 (ix2 r q)
      = entry (fun s => a0 (ix2 r s)) (fun s a => a1 (ix2 q (flat s a))) (a2 (ix1 q)) := rfl

end Cert.OneHotSum

end
-- ==== Proof.KernelEntry.lean ====
/-
  The kernel body's arithmetic, read at one entry.

  One trip of the body takes 256 rows of class words `v7` (five words per row), the five slot weight tables
  `w 0 … w 4` (each 1024 classes × 16 columns, carried with a leading unit axis) and the bias row `v0`, and produces a
  256 × 16 tile. Entry `(p, q)` of the tile is `OneHotSum.entry` of row `p`'s words, column `q` of the tables and
  `v0`'s column `q`: each slot's one-hot matrix times its table is, at `(p, q)`, the 1024-term sum of indicators times
  weights; the five sums are added in turn to a zero tile; the bias row is added to every row; the result is rectified.
-/
import proofs.«104256_j27779848471294_2_alg».proof.Proof.Gen.KernelIdeal.Skeleton
import proofs.«104256_j27779848471294_2_alg».proof.Proof.OneHotSum
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Cert.OneHotSum
open Idealize.ShloMosaic Idealize.ShloMosaic.ValueIdx

/-- The product's dimension numbers: rows × classes times classes × columns. -/
abbrev D := dot_S256x1024_S1024x16_S256x16_1_0_0_1_n_n

/-- Slot `col` of a tile of class words, encoded one-hot over the 1024 classes, read at row `p` and class `a`: the
    indicator that row `p`'s word of that slot is `a`. -/
theorem encoded_apply (col : Nat) (hcol : col < 5) (v7 : Vec Ideal S256x5 .i32)
    (hsl : S256x5.Slices ![0, col] S256x1) (hb : S256x1.Broadcasts S256x1024) (hio : S256x1024.Iotas .tc 32 [1])
    (h132 : 1 < 32) (hbits : FTy.bits .bf16 < FTy.bits .f32) (p : Fin 256) (a : Fin 1024) :
    (truncf (F := Ideal) .bf16 (sitofp (F := Ideal) .f32 (extui 32 (cmpi .eq (iota .tc S256x1024 32 [1] hio)
        (broadcastTo S256x1024 (extractStridedSlice S256x1 ![0, col] v7 hsl) hb)) h132)) hbits) (ix2 p a)
      = hot (v7 (ix2 p ⟨col, hcol⟩)) a.val := by
  rw [truncf_apply, sitofp_apply, extui_apply]
  show FloatOps.sitofp .f32 ((IntOp.cmpi .eq (iota .tc S256x1024 32 [1] hio (ix2 p a))
      (broadcastTo S256x1024 (extractStridedSlice S256x1 ![0, col] v7 hsl) hb (ix2 p a))).setWidth 32) = _
  rw [iota_single_apply,
    broadcastTo_apply (extractStridedSlice S256x1 ![0, col] v7 hsl) hb (ix2 p a) (ix2 p ⟨0, Nat.one_pos⟩)
      (fun d => match d with
        | ⟨0, _⟩ => by show p.val = if (256 : Nat) = 1 then 0 else p.val; rw [if_neg (by decide)]
        | ⟨1, _⟩ => by show 0 = if (1 : Nat) = 1 then 0 else a.val; rw [if_pos rfl]),
    extractStridedSlice_apply ![0, col] v7 hsl (ix2 p ⟨0, Nat.one_pos⟩) (ix2 p ⟨col, hcol⟩)
      (fun d => match d with
        | ⟨0, _⟩ => by show p.val = 0 + p.val; omega
        | ⟨1, _⟩ => by show col = col + 0; omega)]
  exact sitofp_setWidth_cmpi_eq _ _

theorem lhs_row (j : S256x16.Idx) (k : D.contr.Idx) : (D.lhsIdx j k 0).val = (j 0).val := by
  unfold DotDims.lhsIdx
  rw [dif_neg (show ¬(0 : Fin S256x1024.rank) ∈ D.lhsBatch by decide),
    dif_pos (show (0 : Fin S256x1024.rank) ∈ D.lhsNonContracting by decide)]
  rfl

theorem rhs_col (j : S256x16.Idx) (k : D.contr.Idx) : (D.rhsIdx j k 1).val = (j 1).val := by
  unfold DotDims.rhsIdx
  rw [dif_neg (show ¬(1 : Fin S1024x16.rank) ∈ D.rhsBatch by decide),
    dif_pos (show (1 : Fin S1024x16.rank) ∈ D.rhsNonContracting by decide)]
  rfl

/-- A 256 × 1024 matrix times one slot's table (its leading unit axis dropped), into a zero tile, at `(p, q)`: the sum
    over the 1024 classes. -/
theorem product_apply (lhs : FVec Ideal S256x1024 .bf16) (w : Vec Ideal S1x1024x16 .bf16)
    (hsc : S1x1024x16.ShapeCasts S1024x16) (p : Fin 256) (q : Fin 16) :
    matmul (F := Ideal) D none lhs (shapeCast S1024x16 w hsc : FVec Ideal S1024x16 .bf16) (constant (F := Ideal) S256x16 .f32 0x00000000#32) (ix2 p q)
      = ∑ a : Fin 1024, lhs (ix2 p a) * w (ix3 ⟨0, Nat.one_pos⟩ a q) := by
  show FloatOps.matmul D none lhs (shapeCast S1024x16 w hsc : FVec Ideal S1024x16 .bf16) (constant (F := Ideal) S256x16 .f32 0x00000000#32) (ix2 p q) = _
  rw [Ideal.matmul_constant_zero_apply, ← Equiv.sum_comp (contrEquiv1 D 1024 rfl rfl).symm]
  refine Finset.sum_congr rfl fun a _ => ?_
  have ha := contrEquiv1_symm_val D 1024 rfl rfl a
  have el : D.lhsIdx (ix2 p q) ((contrEquiv1 D 1024 rfl rfl).symm a) = ix2 p a := funext fun d => Fin.ext (by
    match d with
    | ⟨0, _⟩ => exact lhs_row _ _
    | ⟨1, _⟩ => exact (D.lhsIdx_val_of_single rfl _ _).trans ha)
  have er : D.rhsIdx (ix2 p q) ((contrEquiv1 D 1024 rfl rfl).symm a) = ix2 a q := funext fun d => Fin.ext (by
    match d with
    | ⟨0, _⟩ => exact (D.rhsIdx_val_of_single rfl _ _).trans ha
    | ⟨1, _⟩ => exact rhs_col _ _)
  rw [el, er]
  congr 1
  refine (shapeCast_apply w hsc (ix2 a q) (ix3 ⟨0, Nat.one_pos⟩ a q) ?_)
  rw [Shape.rowMajor_val_three, Shape.rowMajor_val_two]
  show (0 * 1024 + a.val) * 16 + q.val = a.val * 16 + q.val
  omega

/-- The bias row (a 1 × 16 tile, re-cast to its own shape) spread over the 256 rows, at `(p, q)`: column `q` of it. -/
theorem bias_apply (v0 : Vec Ideal S1x16 .f32) (hsc : S1x16.ShapeCasts S1x16) (hb : S1x16.Broadcasts S256x16)
    (p : Fin 256) (q : Fin 16) :
    broadcastTo S256x16 (shapeCast S1x16 v0 hsc : FVec Ideal S1x16 .f32) hb (ix2 p q) = v0 (ix2 ⟨0, Nat.one_pos⟩ q) := by
  rw [shapeCast_self]
  exact broadcastTo_apply v0 hb (ix2 p q) (ix2 ⟨0, Nat.one_pos⟩ q) (fun d => match d with
    | ⟨0, _⟩ => by show 0 = if (1 : Nat) = 1 then 0 else p.val; rw [if_pos rfl]
    | ⟨1, _⟩ => by show q.val = if (16 : Nat) = 1 then 0 else q.val; rw [if_neg (by decide)])

/-- ONE TRIP'S TILE at entry `(p, q)`, from the trip's 256 rows of class words `v7`, the five slot tables `W s` and the
    bias row `v0`: the rectified sum over slots and classes of indicator times weight, plus the bias. -/
theorem tile_apply (v0 : Vec Ideal S1x16 .f32) (v7 : Vec Ideal S256x5 .i32) (W : Fin 5 → Vec Ideal S1x1024x16 .bf16)
    (p : Fin 256) (q : Fin 16) :
    k0_pay1 (F := Ideal) v0 v7
        (k0_pay2 (F := Ideal) (iota .tc S256x1024 32 [1] iota_S256x1024_d1_w32) v7 (W 0) (W 1) (W 2))
        (k0_pay3 (F := Ideal) (iota .tc S256x1024 32 [1] iota_S256x1024_d1_w32) v7) (W 3) (W 4) (ix2 p q)
      = entry (fun s => v7 (ix2 p s)) (fun s a => W s (ix3 ⟨0, Nat.one_pos⟩ a q)) (v0 (ix2 ⟨0, Nat.one_pos⟩ q)) := by
  unfold entry
  rw [← acc_five]
  unfold k0_pay1 k0_pay2 k0_pay3
  simp only [maximumf_apply, addf_apply, broadcast_apply, product_apply, bias_apply,
    encoded_apply 0 (by decide), encoded_apply 1 (by decide), encoded_apply 2 (by decide),
    encoded_apply 3 (by decide), encoded_apply 4 (by decide), Ideal.ofBits_def]
  rfl

end Cert.KernelIdeal.Entry

end
-- ==== Proof.KernelBlock.lean ====
/-
  What one grid point leaves in the output's staging block.

  A grid point's body runs eight trips; trip `k` reads rows `256·k … 256·k + 255` of the point's block of class
  words, all five slot tables and the bias row, and stores one 256 × 16 tile at rows `256·k …` of the 2048 × 16
  output block. Every tile is the restriction of ONE function of the block index — entry `(r, q)` is
  `OneHotSum.entry` of row `r`'s five words, column `q` of the tables and of the bias —, the eight tiles cover the
  block, so the block holds that function.
-/
import proofs.«104256_j27779848471294_2_alg».proof.Proof.Gen.KernelIdeal.Frame
import proofs.«104256_j27779848471294_2_alg».proof.Proof.KernelEntry
import Idealize.ShloMosaic.Lib.Pipeline.Value
import Idealize.ShloMosaic.Lib.Tactic

set_option maxRecDepth 16384

noncomputable section

namespace Cert.KernelIdeal.Block

open Cert.KernelIdeal Cert.KernelIdeal.Gen Cert.OneHotSum Cert.KernelIdeal.Entry
open Idealize.ShloMosaic Idealize.ShloMosaic.TcCoe Idealize.ShloMosaic.ValueIdx Idealize.SL.Sem

/-- Entry `(r, q)` of the output block as a function of the point's three input blocks: the class words `x0`
    (2048 rows × 5 slots), the slot tables `x1` (5 × 1024 × 16) and the bias row `x2` (1 × 16). -/
def blockEntry (x0 : Vec Ideal S2048x5 .i32) (x1 : Vec Ideal S5x1024x16 .bf16) (x2 : Vec Ideal S1x16 .f32)
    (r : Fin 2048) (q : Fin 16) : EReal :=
  entry (fun s => x0 (ix2 r s)) (fun s a => x1 (ix3 s a q)) (x2 (ix2 ⟨0, Nat.one_pos⟩ q))

/-- The output block as one function of its index. -/
def blockFn (x0 : Vec Ideal S2048x5 .i32) (x1 : Vec Ideal S5x1024x16 .bf16) (x2 : Vec Ideal S1x16 .f32) :
    Vec Ideal S2048x16 .f32 :=
  fun y => blockEntry x0 x1 x2 (y 0) (y 1)

/-- Slot `s`'s table is a unit-thick slab of the 5 × 1024 × 16 block. -/
theorem slot_inb (s : Fin 5) : ∀ a, (![s.val, 0, 0] : Fin 3 → Nat) a + S1x1024x16.size a ≤ S5x1024x16.size a :=
  fun a => match a with
    | ⟨0, _⟩ => by show s.val + 1 ≤ 5; have := s.isLt; omega
    | ⟨1, _⟩ => by show 0 + 1024 ≤ 1024; omega
    | ⟨2, _⟩ => by show 0 + 16 ≤ 16; omega

theorem trips_le (k : Fin k0_t1_loop.trips) : k.val < 8 := Nat.lt_of_lt_of_le k.isLt k0_t1_abs.2.1

theorem off1_0 (k : Fin k0_t1_loop.trips) : k0_off1 k 0 = 256 * k.val := congrFun (k0_off1_eq k) 0
theorem off1_1 (k : Fin k0_t1_loop.trips) : k0_off1 k 1 = 0 := congrFun (k0_off1_eq k) 1
theorem off2_0 (k : Fin k0_t1_loop.trips) : k0_off2 k 0 = 256 * k.val := congrFun (k0_off2_eq k) 0
theorem off2_1 (k : Fin k0_t1_loop.trips) : k0_off2 k 1 = 0 := congrFun (k0_off2_eq k) 1

section Trip

variable (𝒱 : Variants) (c : Dev nD) (bd : Option 𝒱.V) (i : grid0.Coords)
  (arg1 : Memref sig .tc .vmem S2048x5 .i32) (harg1 : arg1.IsWhole)
  (arg2 : Memref sig .tc .vmem S5x1024x16 .bf16) (harg2 : arg2.IsWhole)
  (arg3 : Memref sig .tc .vmem S1x16 .f32) (harg3 : arg3.IsWhole)
  (arg4 : Memref sig .tc .vmem S2048x16 .f32) (harg4 : arg4.IsWhole)
  (x0 : Vec Ideal S2048x5 .i32) (x1 : Vec Ideal S5x1024x16 .bf16) (x2 : Vec Ideal S1x16 .f32)

/-- The rows of class words trip `k` loads. -/
abbrev rowsOf (k : Fin k0_t1_loop.trips) : Vec Ideal S256x5 .i32 :=
  View.ld x0 (Rect.unit (k0_off1 k) S256x5.size (k0_off1_inb k))

/-- The table of slot `s` as a trip loads it. -/
abbrev tableOf (s : Fin 5) : Vec Ideal S1x1024x16 .bf16 :=
  View.ld x1 (Rect.unit ![s.val, 0, 0] S1x1024x16.size (slot_inb s))

/-- The bias row as the body loads it. -/
abbrev biasOf : Vec Ideal S1x16 .f32 := View.ld x2 (Rect.unit ![0, 0] S1x16.size inb_S1x16_S1x16_0_0)

/-- The bias row as the run names it: the staged bias block, loaded whole. -/
abbrev biasLoad : Vec Ideal S1x16 .f32 :=
  View.readAt (Elt Ideal) arg3.view (Rect.unit (s := S1x16) ![0, 0] S1x16.size inb_S1x16_S1x16_0_0).toLoadRect (harg3.unread x2)

/-- Trip `k` stores ONE tile, at rows `256·k …`: the body's arithmetic of the rows, tables and bias it loaded. -/
theorem trip_list (k : Fin k0_t1_loop.trips) :
    tripL_k0_t1 (F := Ideal) 𝒱 c bd i arg1 harg1 arg2 harg2 arg3 harg3 arg4 harg4
        (biasLoad arg3 harg3 x2)
        (iota .tc S256x1024 32 [1] iota_S256x1024_d1_w32) (harg1.unread x0) (harg2.unread x1) k
      = [⟨Rect.unit (k0_off2 k) S256x16.size (k0_off2_inb k),
          k0_pay1 (F := Ideal) (biasOf x2) (rowsOf x0 k)
            (k0_pay2 (F := Ideal) (iota .tc S256x1024 32 [1] iota_S256x1024_d1_w32) (rowsOf x0 k)
              (tableOf x1 0) (tableOf x1 1) (tableOf x1 2))
            (k0_pay3 (F := Ideal) (iota .tc S256x1024 32 [1] iota_S256x1024_d1_w32) (rowsOf x0 k))
            (tableOf x1 3) (tableOf x1 4)⟩] := by
  unfold tripL_k0_t1 trip_k0_t1
  dsimp only
  sl_unfold_words
  simp only [View.readAt_eq_ld, harg1.read_unread, harg2.read_unread, harg3.read_unread]
  rfl

/-- The tile trip `k` stores restricts `blockFn` to its rows. -/
theorem trip_agrees (k : Fin k0_t1_loop.trips) :
    ∀ pc ∈ tripL_k0_t1 (F := Ideal) 𝒱 c bd i arg1 harg1 arg2 harg2 arg3 harg3 arg4 harg4
        (biasLoad arg3 harg3 x2)
        (iota .tc S256x1024 32 [1] iota_S256x1024_d1_w32) (harg1.unread x0) (harg2.unread x1) k,
      ∀ x : pc.1.shape.Idx, pc.2 x = blockFn x0 x1 x2 (pc.1.emb x) := by
  intro pc hpc
  rw [trip_list] at hpc
  obtain rfl := List.mem_singleton.mp hpc
  intro x
  obtain ⟨p, q, rfl⟩ : ∃ (p : Fin 256) (q : Fin 16), x = ix2 p q := ⟨x 0, x 1, eq_ix2 x⟩
  have hk := trips_le k
  have hR : (Rect.unit (s := S2048x16) (k0_off2 k) S256x16.size (k0_off2_inb k)).emb (ix2 p q)
      = ix2 (⟨256 * k.val + p.val, by have := p.isLt; omega⟩ : Fin 2048) q := funext fun d => Fin.ext (match d with
    | ⟨0, _⟩ => by show k0_off2 k 0 + 1 * p.val = 256 * k.val + p.val; rw [off2_0]; omega
    | ⟨1, _⟩ => by show k0_off2 k 1 + 1 * q.val = q.val; rw [off2_1]; omega)
  show k0_pay1 (F := Ideal) _ _ _ _ _ _ (ix2 p q) = blockFn x0 x1 x2 _
  rw [hR]
  refine (tile_apply (biasOf x2) (rowsOf x0 k) (tableOf x1) p q).trans ?_
  show _ = blockEntry x0 x1 x2 ⟨256 * k.val + p.val, _⟩ q
  unfold blockEntry
  have e0 : (fun s : Fin 5 => rowsOf x0 k (ix2 p s))
      = fun s => x0 (ix2 (⟨256 * k.val + p.val, by have := p.isLt; omega⟩ : Fin 2048) s) := funext fun s =>
    congrArg x0 (funext fun d => Fin.ext (match d with
      | ⟨0, _⟩ => by show k0_off1 k 0 + 1 * p.val = 256 * k.val + p.val; rw [off1_0]; omega
      | ⟨1, _⟩ => by show k0_off1 k 1 + 1 * s.val = s.val; rw [off1_1]; omega))
  have e1 : (fun (s : Fin 5) (a : Fin 1024) => tableOf x1 s (ix3 ⟨0, Nat.one_pos⟩ a q))
      = fun s a => x1 (ix3 s a q) := funext fun s => funext fun a =>
    congrArg x1 (funext fun d => Fin.ext (match d with
      | ⟨0, _⟩ => by show s.val + 1 * 0 = s.val; omega
      | ⟨1, _⟩ => by show 0 + 1 * a.val = a.val; omega
      | ⟨2, _⟩ => by show 0 + 1 * q.val = q.val; omega))
  have e2 : biasOf x2 (ix2 ⟨0, Nat.one_pos⟩ q) = x2 (ix2 ⟨0, Nat.one_pos⟩ q) :=
    congrArg x2 (funext fun d => Fin.ext (match d with
      | ⟨0, _⟩ => by show 0 + 1 * 0 = 0; omega
      | ⟨1, _⟩ => by show 0 + 1 * q.val = q.val; omega))
  rw [e0, e1, e2]

/-- So does every tile of the trips before `n`. -/
theorem trips_agree : ∀ n : ℕ,
    ∀ pc ∈ pb_k0_t1 (F := Ideal) 𝒱 c bd i arg1 harg1 arg2 harg2 arg3 harg3 arg4 harg4
        (biasLoad arg3 harg3 x2)
        (iota .tc S256x1024 32 [1] iota_S256x1024_d1_w32) (harg1.unread x0) (harg2.unread x1) n,
      ∀ x : pc.1.shape.Idx, pc.2 x = blockFn x0 x1 x2 (pc.1.emb x)
  | 0 => by
    intro pc hpc
    rw [pb_k0_t1.eq_1] at hpc
    exact absurd hpc List.not_mem_nil
  | n + 1 => by
    intro pc hpc
    rw [pb_k0_t1.eq_2] at hpc
    unfold pb_k0_t1Step at hpc
    by_cases hn : n < k0_t1_loop.trips
    · rw [dif_pos hn] at hpc
      rcases List.mem_append.mp hpc with h | h
      · exact trip_agrees 𝒱 c bd i arg1 harg1 arg2 harg2 arg3 harg3 arg4 harg4 x0 x1 x2 ⟨n, hn⟩ pc h
      · exact trips_agree n pc h
    · rw [dif_neg hn] at hpc
      exact trips_agree n pc hpc

end Trip

/-- WHAT A GRID POINT LEAVES in the output's staging block, whatever the block held before: `blockFn` of the point's
    input blocks. The stores of the run are the eight trips' tiles; each restricts `blockFn`, and they cover the block. -/
theorem out_eq (c : Dev nD) (i : grid0.Coords)
    (arg1 : Memref sig .tc .vmem S2048x5 .i32) (harg1 : arg1.IsWhole)
    (arg2 : Memref sig .tc .vmem S5x1024x16 .bf16) (harg2 : arg2.IsWhole)
    (arg3 : Memref sig .tc .vmem S1x16 .f32) (harg3 : arg3.IsWhole)
    (arg4 : Memref sig .tc .vmem S2048x16 .f32) (harg4 : arg4.IsWhole)
    (x0 : Vec Ideal S2048x5 .i32) (x1 : Vec Ideal S5x1024x16 .bf16) (x2 : Vec Ideal S1x16 .f32) :
    out0_A_3 (F := Ideal) c i arg1 harg1 arg2 harg2 arg3 harg3 arg4 harg4 x0 x1 x2 = blockFn x0 x1 x2 := by
  funext y
  unfold out0_A_3
  rw [View.read_writes_junk_eq_canon]
  refine View.canon_apply_of_pieces (blockFn x0 x1 x2) _ ?_ y
    (cover0_A_3 c i arg1 harg1 arg2 harg2 arg3 harg3 arg4 harg4 x0 x1 x2 y)
  unfold kernelRun0_A
  dsimp only
  sl_unfold_words
  exact trips_agree Variants.none c none i arg1 harg1 arg2 harg2 arg3 harg3 arg4 harg4 x0 x1 x2 _

end Cert.KernelIdeal.Block

end
-- ==== Proof.KernelWhole.lean ====
/-
  From the grid points' blocks to the whole result array.

  Grid point `t` works on rows `2048·t … 2048·t + 2047`: its block of class words is those rows of the argument, the
  slot tables and the bias row are the same whole arrays at every point, and its output block is written back to
  those rows of the result. The tables the region finds are the weights transposed, re-cut to slot × class × column
  and re-typed — `table (s, a, q) = weight (q, 1024·s + a)` — and the bias row is the bias with a unit axis in front.
  So what point `t` writes back is the restriction of `OneHotSum.result` of the three arguments to its rows; the eight
  blocks cover the 16384 rows, and the result array ends holding `OneHotSum.result`.
-/
import proofs.«104256_j27779848471294_2_alg».proof.Proof.Gen.KernelIdeal.Value
import proofs.«104256_j27779848471294_2_alg».proof.Proof.KernelBlock
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.OneHotSum Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the grid: the class words and the result move one block of rows per point; the tables
    and the bias row stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := lt_of_lt_of_eq t.isLt N_0

/-- The three argument arrays, at their index types. -/
abbrev words (c : Dev nD) : S16384x5.Idx → BitVec 32 := m ((c : Thread nD τ).loc main_arg0)
abbrev weights (c : Dev nD) : S16x5120.Idx → EReal := m ((c : Thread nD τ).loc main_arg1)
abbrev bias (c : Dev nD) : S16.Idx → EReal := m ((c : Thread nD τ).loc main_arg2)

/-- The slot tables as the region finds them: the weights transposed, re-cut and re-typed by the host. -/
theorem tables_eq (c : Dev nD) :
    (V m c main_v2 : S5x1024x16.Idx → EReal)
      = truncf (F := Ideal) .bf16 (shapeCast S5x1024x16 (transpose S5120x16 [1, 0] (weights m c)
          transposes_S16x5120_S5120x16_1_0 : S5120x16.Idx → EReal) shapeCasts_S5120x16_S5x1024x16 : FVec Ideal S5x1024x16 .f32)
          bitsLt_bf16_f32 := by
  dsimp only [Gen.V, Gen.hostOps0]
  after_results
  rfl

/-- The bias row as the region finds it: the bias with a unit axis in front. -/
theorem biasrow_eq (c : Dev nD) :
    (V m c main_v3 : S1x16.Idx → EReal) = shapeCast S1x16 (bias m c) shapeCasts_S16_S1x16 := by
  dsimp only [Gen.V, Gen.hostOps0]
  after_results
  rfl

/-- Table entry (slot `s`, class `a`, column `q`) is weight `(q, 1024·s + a)`. -/
theorem tables_apply (c : Dev nD) (s : Fin 5) (a : Fin 1024) (q : Fin 16) :
    (V m c main_v2 : S5x1024x16.Idx → EReal) (ix3 s a q) = weights m c (ix2 q (flat s a)) := by
  rw [tables_eq, truncf_apply]
  refine (shapeCast_apply _ shapeCasts_S5120x16_S5x1024x16 (ix3 s a q) (ix2 (flat s a) q) ?_).trans ?_
  · rw [Shape.rowMajor_val_three, Shape.rowMajor_val_two]
    show (1024 * s.val + a.val) * 16 + q.val = (s.val * 1024 + a.val) * 16 + q.val
    omega
  · exact transpose_apply [1, 0] (weights m c) transposes_S16x5120_S5120x16_1_0 (ix2 (flat s a) q) (ix2 q (flat s a))
      (fun b => match b with
        | ⟨0, _⟩ => rfl
        | ⟨1, _⟩ => rfl)

/-- Bias-row entry `(0, q)` is the bias of column `q`. -/
theorem biasrow_apply (c : Dev nD) (q : Fin 16) :
    (V m c main_v3 : S1x16.Idx → EReal) (ix2 ⟨0, Nat.one_pos⟩ q) = bias m c (ix1 q) := by
  rw [biasrow_eq]
  refine shapeCast_apply _ shapeCasts_S16_S1x16 (ix2 ⟨0, Nat.one_pos⟩ q) (ix1 q) ?_
  rw [Shape.rowMajor_val_one, Shape.rowMajor_val_two]
  show q.val = 0 * 16 + q.val
  omega

/-- Point `t`'s block of class words is rows `2048·t …` of the argument. -/
theorem words_blk (c : Dev nD) (t : Fin cfg0.N) (r : Fin 2048) (s : Fin 5) :
    (iblk m c 0 t : Vec Ideal S2048x5 .i32) (ix2 r s)
      = words m c (ix2 (⟨2048 * t.val + r.val, by have := point_lt t; have := r.isLt; omega⟩ : Fin 16384) s) := by
  unfold iblk
  rw [View.read_apply]
  show V m c main_arg0 _ = _
  rw [V_main_arg0]
  refine congrArg (words m c) (funext fun a => Fin.ext ?_)
  match a with
  | ⟨0, _⟩ =>
    show win0_0.index t (0 : Fin 2) * 2048 + 1 * r.val = 2048 * t.val + r.val
    rw [(idx_facts t).1]; omega
  | ⟨1, _⟩ =>
    show win0_0.index t (1 : Fin 2) * 5 + 1 * s.val = s.val
    rw [(idx_facts t).2.1]; omega

/-- Every point's block of tables is the whole tables. -/
theorem tables_blk (c : Dev nD) (t : Fin cfg0.N) (s : Fin 5) (a : Fin 1024) (q : Fin 16) :
    (iblk m c 1 t : Vec Ideal S5x1024x16 .bf16) (ix3 s a q) = weights m c (ix2 q (flat s a)) := by
  unfold iblk
  rw [View.read_apply]
  show V m c main_v2 _ = _
  refine Eq.trans (congrArg (V m c main_v2 : S5x1024x16.Idx → EReal) (funext fun d => Fin.ext ?_)) (tables_apply m c s a q)
  match d with
  | ⟨0, _⟩ =>
    show win0_1.index t (0 : Fin 3) * 5 + 1 * s.val = s.val
    rw [(idx_facts t).2.2.1]; omega
  | ⟨1, _⟩ =>
    show win0_1.index t (1 : Fin 3) * 1024 + 1 * a.val = a.val
    rw [(idx_facts t).2.2.2.1]; omega
  | ⟨2, _⟩ =>
    show win0_1.index t (2 : Fin 3) * 16 + 1 * q.val = q.val
    rw [(idx_facts t).2.2.2.2.1]; omega

/-- Every point's bias block is the whole bias row. -/
theorem biasrow_blk (c : Dev nD) (t : Fin cfg0.N) (q : Fin 16) :
    (iblk m c 2 t : Vec Ideal S1x16 .f32) (ix2 ⟨0, Nat.one_pos⟩ q) = bias m c (ix1 q) := by
  unfold iblk
  rw [View.read_apply]
  show V m c main_v3 _ = _
  refine Eq.trans (congrArg (V m c main_v3 : S1x16.Idx → EReal) (funext fun d => Fin.ext ?_)) (biasrow_apply m c q)
  match d with
  | ⟨0, _⟩ =>
    show win0_2.index t (0 : Fin 2) * 1 + 1 * 0 = 0
    rw [(idx_facts t).2.2.2.2.2.1]
  | ⟨1, _⟩ =>
    show win0_2.index t (1 : Fin 2) * 16 + 1 * q.val = q.val
    rw [(idx_facts t).2.2.2.2.2.2.1]; omega

/-- WHAT POINT `t` WRITES BACK is its block of rows of `result` of the three arguments. -/
theorem flushed_eq (c : Dev nD) (t : Fin cfg0.N) :
    (dats m 0 c).flushed 3 t
      = ((cfg0.win 3).blk t).view.read (Elt Ideal) (result (words m c) (weights m c) (bias m c)) := by
  rw [Value.flushed3_A, out_eq]
  funext j
  obtain ⟨p, q, rfl⟩ : ∃ (p : Fin 2048) (q : Fin 16), j = ix2 p q := ⟨j 0, j 1, eq_ix2 j⟩
  have ht := point_lt t
  have hemb : ((cfg0.win 3).blk t).view.emb (ix2 p q)
      = ix2 (⟨2048 * t.val + p.val, by have := p.isLt; omega⟩ : Fin 16384) q := funext fun a => Fin.ext (match a with
    | ⟨0, _⟩ => by
      show win0_3.index t (0 : Fin 2) * 2048 + 1 * p.val = 2048 * t.val + p.val
      rw [(idx_facts t).2.2.2.2.2.2.2.1]; omega
    | ⟨1, _⟩ => by
      show win0_3.index t (1 : Fin 2) * 16 + 1 * q.val = q.val
      rw [(idx_facts t).2.2.2.2.2.2.2.2]; omega)
  show blockFn (iblk m c 0 t) (iblk m c 1 t) (iblk m c 2 t) (ix2 p q)
    = result (words m c) (weights m c) (bias m c) (((cfg0.win 3).blk t).view.emb (ix2 p q))
  rw [hemb, result_ix2]
  show blockEntry (iblk m c 0 t) (iblk m c 1 t) (iblk m c 2 t) p q = _
  unfold blockEntry
  simp only [words_blk, tables_blk, biasrow_blk]

/-- Every row of the result lies in some point's block. -/
theorem cover (c : Dev nD) (i : S16384x16.Idx) :
    ∃ t : Fin cfg0.N, (cfg0.win 3).flush t = true ∧ i ∈ ((cfg0.win 3).blk t).view.set := by
  have hi0 : (i 0).val < 16384 := (i 0).isLt
  have hi1 : (i 1).val < 16 := (i 1).isLt
  have hN : cfg0.N = 8 := N_0
  obtain ⟨t, ht⟩ : ∃ t : Fin cfg0.N, t.val = (i 0).val / 2048 := ⟨⟨(i 0).val / 2048, by rw [hN]; omega⟩, rfl⟩
  refine ⟨t, flush0_3 t, ?_⟩
  show i ∈ ((View.whole main_v4).slice (win0_3.rect t)).set
  rw [View.set_slice_whole, Rect.mem_set_unit]
  intro a
  have f := idx_facts t
  match a with
  | ⟨0, _⟩ =>
    show win0_3.index t (0 : Fin 2) * 2048 ≤ (i 0).val ∧ (i 0).val < win0_3.index t (0 : Fin 2) * 2048 + 2048
    rw [f.2.2.2.2.2.2.2.1, ht]
    omega
  | ⟨1, _⟩ =>
    show win0_3.index t (1 : Fin 2) * 16 ≤ (i 1).val ∧ (i 1).val < win0_3.index t (1 : Fin 2) * 16 + 16
    rw [f.2.2.2.2.2.2.2.2]
    omega

/-- THE RESULT ARRAY after the run is `result` of the three arguments. -/
theorem final (c : Dev nD) :
    (dats m 0 c).arrAt 3 cfg0.N = result (words m c) (weights m c) (bias m c) :=
  (dats m 0 c).arrAt_eq_of_cover 3 (result (words m c) (weights m c) (bias m c)) (fun t _ => flushed_eq m c t) (cover c)

/-- The kernel's run: it terminates with the result array at `result` of the arguments, the arguments unchanged. -/
theorem run : θ_run defs (onTc (τ := τ) (main (F := Ideal))) ⟨m, fun _ => 0, ρ⟩ fun r => ∀ c : Dev nD,
      r.2.mem ((c : Thread nD τ).loc main_v4) = result (words m c) (weights m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceValue.lean ====
/-
  The reference, read at one entry.

  The reference encodes every row's five class words one-hot over 1024 classes, flattens the encoding to 5120
  positions (slot-major: position `1024·s + a` is class `a` of slot `s`), multiplies it by the transposed weights in
  ONE 5120-term contraction, adds the bias to every row and rectifies. Splitting the contraction's index into
  (slot, class) makes its entry `(r, q)` the double sum `OneHotSum.entry` states: position `1024·s + a` of row `r`
  holds the indicator that word `s` of the row is `a`, and meets weight `(q, 1024·s + a)`.
-/
import proofs.«104256_j27779848471294_2_alg».proof.Proof.Gen.ReferenceIdeal.Read
import proofs.«104256_j27779848471294_2_alg».proof.Proof.OneHotSum

noncomputable section

namespace Cert.ReferenceIdeal.RefValue

open Cert.ReferenceIdeal Cert.ReferenceIdeal.Gen Cert.ReferenceIdeal.Read Cert.OneHotSum
open Idealize.ShloMosaic Idealize.ShloMosaic.ValueIdx

/-- The flattened one-hot encoding of row `r` at position `1024·s + a`: the indicator that the row's word `s` is `a`. -/
theorem encoded_at (x0 : (⟨S16384x5, .i32⟩ : BufTy).Contents (Elt Ideal)) (r : Fin 16384) (q : Fin 16) (s : Fin 5) (a : Fin 1024) :
    val_main_v1 (F := Ideal) x0 (lidx_main_v3 (ix2 r q) (flat s a)) = hot (x0 (ix2 r s)) a.val := by
  rw [val_main_v1_apply, val_main_v0_apply, val_main_call0_v4_apply, val_main_call0_v2_apply, val_main_call0_v0_apply,
    val_main_call0_v3_apply, val_main_call0_v1_apply]
  unfold hot
  have hr := r.isLt
  have hs := s.isLt
  have ha := a.isLt
  have e1 : idx_main_call0_v0 (idx_main_call0_v2 (idx_main_v1 (lidx_main_v3 (ix2 r q) (flat s a)))) = ix2 r s :=
    funext fun d => Fin.ext (match d with
      | ⟨0, _⟩ => by show (r.val * 5120 + (1024 * s.val + a.val)) / 5120 = r.val; omega
      | ⟨1, _⟩ => by show (r.val * 5120 + (1024 * s.val + a.val)) / 1024 % 5 = s.val; omega)
  have e2 : ((idx_main_call0_v3 (idx_main_v1 (lidx_main_v3 (ix2 r q) (flat s a)))) 2).val = a.val := by
    show (r.val * 5120 + (1024 * s.val + a.val)) % 1024 = a.val
    omega
  rw [e1, e2]

/-- The transposed weights at position `k` and column `q`: weight `(q, k)`. -/
theorem weight_at (x1 : (⟨S16x5120, .f32⟩ : BufTy).Contents (Elt Ideal)) (r : Fin 16384) (q : Fin 16) (k : Fin 5120) :
    val_main_v2 (F := Ideal) x1 (ridx_main_v3 (ix2 r q) k) = x1 (ix2 q k) := by
  rw [val_main_v2_apply]
  exact congrArg x1 (funext fun d => Fin.ext (match d with
    | ⟨0, _⟩ => rfl
    | ⟨1, _⟩ => rfl))

/-- The bias spread over the rows, at `(r, q)`: the bias of column `q`. -/
theorem bias_at (x2 : (⟨S16, .f32⟩ : BufTy).Contents (Elt Ideal)) (r : Fin 16384) (q : Fin 16) :
    val_main_v5 (F := Ideal) x2 (ix2 r q) = x2 (ix1 q) := by
  rw [val_main_v5_apply, val_main_v4_apply]
  exact congrArg x2 (funext fun d => Fin.ext (match d with
    | ⟨0, _⟩ => rfl))

/-- THE REFERENCE'S RESULT is `OneHotSum.result` of its arguments. -/
theorem ref_eq (x0 : (⟨S16384x5, .i32⟩ : BufTy).Contents (Elt Ideal)) (x1 : (⟨S16x5120, .f32⟩ : BufTy).Contents (Elt Ideal))
    (x2 : (⟨S16, .f32⟩ : BufTy).Contents (Elt Ideal)) :
    val_main_v7 (F := Ideal) x0 x1 x2 = result x0 x1 x2 := by
  funext i
  obtain ⟨r, q, rfl⟩ : ∃ (r : Fin 16384) (q : Fin 16), i = ix2 r q := ⟨i 0, i 1, eq_ix2 i⟩
  rw [result_ix2, val_main_v7_apply, val_main_v6_apply, val_main_v3_apply, bias_at, val_main_call1_v0_apply,
    val_main_call1_cst_apply, sum_flat]
  simp only [encoded_at, weight_at]
  rfl

end Cert.ReferenceIdeal.RefValue

end
-- ==== Proof.lean ====
/-
  The certificate's claim, assembled.

  Both idealized programs compute, for row `r` and column `q`, the rectified affine form of the row's one-hot
  encoding: `max (Σ_s Σ_a [word (r, s) = a] · weight (q, 1024·s + a) + bias q) 0` (`OneHotSum.result`). The kernel
  reaches it slot by slot, eight 256-row tiles per grid point and eight grid points (`KernelEntry`, `KernelBlock`,
  `KernelWhole`); the reference by one 5120-term contraction over the flattened encoding (`ReferenceValue`). The two
  arrangements of the sum agree on the extended reals by re-indexing and associativity alone, so the precondition is
  not used. The frames are the generated ones (the reference's is its generated run with the result dropped); the
  idealization rewrote nothing, so there is nothing to preserve.
-/
import proofs.«104256_j27779848471294_2_alg».proof.Defs
import proofs.«104256_j27779848471294_2_alg».proof.Proof.Gen.Kernel
import proofs.«104256_j27779848471294_2_alg».proof.Proof.Gen.Kernel.Frame
import proofs.«104256_j27779848471294_2_alg».proof.Proof.Gen.KernelIdeal
import proofs.«104256_j27779848471294_2_alg».proof.Proof.Gen.KernelIdeal.Frame
import proofs.«104256_j27779848471294_2_alg».proof.Proof.Gen.KernelIdeal.Value
import proofs.«104256_j27779848471294_2_alg».proof.Proof.Gen.ReferenceIdeal
import proofs.«104256_j27779848471294_2_alg».proof.Proof.Gen.ReferenceIdeal.Run
import proofs.«104256_j27779848471294_2_alg».proof.Proof.Gen.ReferenceIdeal.Read
import proofs.«104256_j27779848471294_2_alg».proof.Proof.Gen.Pre_finite_inputs
import proofs.«104256_j27779848471294_2_alg».proof.Proof.KernelWhole
import proofs.«104256_j27779848471294_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the result array at
    `OneHotSum.result` of those arguments. -/
theorem algebraic : Cert.algebraic_KernelIdeal_ReferenceIdeal := by
  intro m ρ m' ρ' _ hagree
  refine ⟨fun c => Cert.OneHotSum.result (Cert.KernelIdeal.Whole.words m c) (Cert.KernelIdeal.Whole.weights m c)
    (Cert.KernelIdeal.Whole.bias m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
